-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts]

def fn {F : FTy → Type} [FloatOps F] (main_arg0 : FVec F S8388608x3 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  main_v3
-- ==== Kernel.lean ====
abbrev S8388608x3 : Shape := ⟨2, ![8388608, 3]⟩
abbrev S8388608 : Shape := ⟨1, ![8388608]⟩
abbrev S16384x3 : Shape := ⟨2, ![16384, 3]⟩
abbrev S16384 : Shape := ⟨1, ![16384]⟩

abbrev nBuf : Space → Nat
  | .hbm => 2
  | .vmem => 4
  | .smem => 0
  | _ => 0

abbrev bufTy : (tb : Table) → Fin (tcTables nBuf tb) → BufTy
  | .hbm, ⟨0, _⟩ => ⟨S8388608x3, .f32⟩
  | .hbm, ⟨1, _⟩ => ⟨S8388608, .f32⟩
  | .local _ .vmem, ⟨0, _⟩ => ⟨S16384x3, .f32⟩
  | .local _ .vmem, ⟨1, _⟩ => ⟨S16384x3, .f32⟩
  | .local _ .vmem, ⟨2, _⟩ => ⟨S16384, .f32⟩
  | .local _ .vmem, ⟨3, _⟩ => ⟨S16384, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x3_S16384x3_0_0 : ∀ a, (![0, 0] : Fin 2 → Nat) a + S16384x3.size a ≤ S16384x3.size a
  h_S16384x3 : 0 < S16384x3.numel
  reduces_S16384x3_S16384 : S16384x3.Reduces [1] S16384
  inb_S16384_S16384_0 : ∀ a, (![0] : Fin 1 → Nat) a + S16384.size a ≤ S16384.size a
  h_S16384 : 0 < S16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x3.size a ≤ S8388608x3.size a
  hwx0_0 : ∀ i : grid0.Coords, EltTy.bits .f32 = 32 ∨ (Rect.block (s := S8388608x3) S16384x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S8388608.size a
  hwx0_1 : ∀ i : grid0.Coords, EltTy.bits .f32 = 32 ∨ (Rect.block (s := S8388608) S16384.size (cc0_transform_1 i) (hinb0_1 i)).WholeWords (EltTy.packing .f32)

variable [Facts₀]

abbrev win0_0 : Pipeline.Window sig grid0 :=
  Pipeline.Window.ofSpec (Memref.whole main_arg0) S16384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S_ : Shape := ⟨0, ![]⟩
abbrev S8388608 : Shape := ⟨1, ![8388608]⟩

abbrev nBuf : Space → Nat
  | .hbm => 21
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608x3, .f32⟩
  | .hbm, ⟨2, _⟩ => ⟨S_, .f32⟩
  | .hbm, ⟨3, _⟩ => ⟨S8388608x3, .f32⟩
  | .hbm, ⟨4, _⟩ => ⟨S8388608x3, .f32⟩
  | .hbm, ⟨5, _⟩ => ⟨S_, .f32⟩
  | .hbm, ⟨6, _⟩ => ⟨S8388608x3, .f32⟩
  | .hbm, ⟨7, _⟩ => ⟨S8388608x3, .i1⟩
  | .hbm, ⟨8, _⟩ => ⟨S_, .i1⟩
  | .hbm, ⟨9, _⟩ => ⟨S8388608, .i1⟩
  | .hbm, ⟨10, _⟩ => ⟨S_, .f32⟩
  | .hbm, ⟨11, _⟩ => ⟨S8388608x3, .f32⟩
  | .hbm, ⟨12, _⟩ => ⟨S8388608x3, .f32⟩
  | .hbm, ⟨13, _⟩ => ⟨S8388608x3, .f32⟩
  | .hbm, ⟨14, _⟩ => ⟨S_, .f32⟩
  | .hbm, ⟨15, _⟩ => ⟨S8388608, .f32⟩
  | .hbm, ⟨16, _⟩ => ⟨S8388608, .f32⟩
  | .hbm, ⟨17, _⟩ => ⟨S_, .f32⟩
  | .hbm, ⟨18, _⟩ => ⟨S8388608, .f32⟩
  | .hbm, ⟨19, _⟩ => ⟨S8388608, .f32⟩
  | .hbm, ⟨20, _⟩ => ⟨S8388608, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S8388608x3 : S_.BroadcastsInDim S8388608x3 (![] : Fin 0 → Fin S8388608x3.rank)
  reducesTo_S8388608x3_S8388608_d1 : S8388608x3.ReducesTo [1] S8388608
  h_S_ : 0 < S_.numel

variable [Facts₀]

class Facts : Prop extends Facts₀ where

variable [Facts]
-- ==== Proof.LibRowFolds.lean ====
/-
  Folds along the lanes of an `[a, b]` array, read at a row, over arbitrary extents.

  * A kernel's `vector.multi_reduction <add>` over axis 1, at the ideal values, is at row `p` the plain sum of the
    row's entries, written `src (ix2 p k)`.
  * The host's one-operand `stablehlo.reduce` over axis 1 whose body is the bitwise `and` is at row `r` the fold of
    `and` from the initial value over the row's entries (what `jnp.all(·, axis=1)` lowers to).
  * A fold of `and` from the word 1 over one-bit truth words `ofBool (p k)` is the truth word of `∀ k, p k`.
-/
import Idealize.ShloMosaic.Lib.ValueIdx
import Idealize.ShloMosaic.PureOps.Ideal.Laws

noncomputable section

namespace Cert.Lib.RowFolds

open Idealize.ShloMosaic Idealize.ShloMosaic.ValueIdx

/-- A kernel's lane sum of an `[a, b]` tile, at row `p`: the sum of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun ax => Fin.ext (by match ax with | ⟨0, _⟩ => rfl | ⟨1, _⟩ => rfl))

/-- The host's `and` over axis 1 of an `[a, b]` array of one-bit words, at row `r`: the fold of `and` from the initial
    value over the row. -/
theorem hostRowAll_apply {a b : ℕ} {u : Shape} (x : (⟨2, ![a, b]⟩ : Shape).Idx → BitVec 1) (init : u.Idx → BitVec 1)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (IntOp.andi (w := 1)) x init h' hu (ix1 r)
      = (Finset.univ : Finset (Fin b)).fold IntOp.andi (init (Shape.Idx.first hu)) (fun k => x (ix2 r k)) := by
  refine (Host.reduce_eq_fold_single (IntOp.andi (w := 1)) x init h' h hu (ix1 r)).trans ?_
  refine congrArg (fun g => (Finset.univ : Finset (Fin b)).fold IntOp.andi (init (Shape.Idx.first hu)) g) (funext fun k => ?_)
  exact congrArg x (funext fun ax => Fin.ext (by match ax with | ⟨0, _⟩ => rfl | ⟨1, _⟩ => rfl))

/-- `and` folded from 1 over the truth words of a family of decidable facts is the truth word of their conjunction. -/
theorem fold_andi_ofBool {ι : Type} [DecidableEq ι] (s : Finset ι) (p : ι → Bool) :
    s.fold (IntOp.andi (w := 1)) 1#1 (fun k => BitVec.ofBool (p k)) = BitVec.ofBool (decide (∀ k ∈ s, p k = true)) := by
  induction s using Finset.induction_on with
  | empty => simp
  | insert a s ha ih =>
    rw [Finset.fold_insert ha, ih]
    unfold IntOp.andi
    rw [BitVec.ofBool_and_ofBool]
    congr 1
    simp [Finset.forall_mem_insert]

end Cert.Lib.RowFolds

end
-- ==== Proof.BoxDistance.lean ====
/-
  The distance from a point of space to the surface of an axis-aligned cube, in closed form, on the extended reals.

  Take a point `(x₀, x₁, x₂)` and the cube `[−s, s]³`, and write `q k = |x k| − s` for the three shifted coordinates.
  The point lies strictly inside the cube exactly when every `q k` is negative; its distance to the surface is then the
  least `s − |x k|`, which is `−(max_k q k)`.  Otherwise the nearest surface point is the point with each coordinate
  clamped into `[−s, s]`, and the distance is `sqrt (Σ_k (max (q k) 0)²)`.

  "Inside" can be said in two ways, `max_k q k < 0` and `∀ k, q k < 0`; in a linear order they are one proposition
  (`rowMax_lt_zero_iff`), with the maximum folded from −∞ because −∞ is itself negative.  As one-bit words: the `and` of
  the three comparisons `q k < 0` is the comparison `max_k q k < 0` (`inside_word`).  Nothing here needs the
  coordinates to be finite.
-/
import Idealize.ShloMosaic.Lib.ValueIdx
import Idealize.ShloMosaic.PureOps.Ideal.Laws
import proofs.«146414_j52802327937041_1_alg».proof.Proof.LibRowFolds

noncomputable section

namespace Cert.BoxDistance

open Idealize.ShloMosaic Idealize.ShloMosaic.ValueIdx

/-- The binary32 word of −∞ is the least extended real. -/
theorem negInf_eq_bot : Ideal.ofBits .f32 0xFF800000#32 = ⊥ := by simp [Ideal.ofBits, Ideal.ieee]

/-- A coordinate's shifted absolute value `|a| − s`; the half-extent `s` is the binary32 number nearest 0.4. -/
def shift (a : EReal) : EReal := max a (-a) - Ideal.ofBits .f32 0x3ECCCCCD#32

/-- The largest of three values, folded from −∞. -/
def rowMax (q : Fin 3 → EReal) : EReal :=
  (Finset.univ : Finset (Fin 3)).fold max (Ideal.ofBits .f32 0xFF800000#32) q

/-- The distance to the cube's surface, from the three shifted coordinates. -/
def rowDist (q : Fin 3 → EReal) : EReal :=
  if rowMax q < 0 then -rowMax q else Ideal.sqrt (∑ k : Fin 3, max (q k) 0 * max (q k) 0)

/-- The largest of the three is negative exactly when each of them is. -/
theorem rowMax_lt_zero_iff (q : Fin 3 → EReal) : rowMax q < 0 ↔ ∀ k, q k < 0 := by
  unfold rowMax
  rw [Finset.fold_max_lt, negInf_eq_bot]
  exact ⟨fun h k => h.2 k (Finset.mem_univ k), fun h => ⟨EReal.bot_lt_zero, fun k _ => h k⟩⟩

/-- The whole array of distances: row `r` of an `[8388608, 3]` array of points gives entry `r`. -/
def udf (x : (⟨2, ![8388608, 3]⟩ : Shape).Idx → EReal) : (⟨1, ![8388608]⟩ : Shape).Idx → EReal :=
  fun i => rowDist fun k => shift (x (ix2 (i 0) k))

/-- A select on a strict comparison is the `if` on the order. -/
theorem select_olt (a b u v : EReal) : Scalar.select (Ideal.cmp .olt a b) u v = if a < b then u else v := by
  unfold Scalar.select Ideal.cmp
  by_cases h : a < b <;> simp [h]

/-- The `and` of the three comparisons `q k < 0`, folded from the word 1, is the comparison of the largest with 0. -/
theorem inside_word (q : Fin 3 → EReal) :
    (Finset.univ : Finset (Fin 3)).fold (IntOp.andi (w := 1)) 1#1 (fun k => Ideal.cmp .olt (q k) 0)
      = Ideal.cmp .olt (rowMax q) 0 := by
  have e : (fun k => Ideal.cmp .olt (q k) 0) = fun k => BitVec.ofBool (decide (q k < 0)) := rfl
  rw [e, Cert.Lib.RowFolds.fold_andi_ofBool]
  show BitVec.ofBool _ = BitVec.ofBool (decide (rowMax q < 0))
  congr 1
  refine decide_eq_decide.mpr ?_
  rw [rowMax_lt_zero_iff]
  simp

/-- The choice between the two distances as the two programs spell it: a select on the comparison of `a` with `z`,
    between `z − b` and `sqrt c`.  With `z = 0` and `a = b` the largest shifted coordinate it is `rowDist`'s `if`. -/
def pick (z a b c : EReal) : EReal := Scalar.select (Ideal.cmp .olt a z) (z - b) (Ideal.sqrt c)

theorem pick_zero (a c : EReal) : pick 0 a a c = if a < 0 then -a else Ideal.sqrt c := by
  unfold pick
  rw [select_olt, zero_sub]

end Cert.BoxDistance

end
-- ==== Proof.LibRowMax.lean ====
/-
  The maximum along the lanes of an `[a, b]` array, read at a row, at the ideal values.

  In a kernel (`vector.multi_reduction <maximumf>` over axis 1, started from the word of −∞) and on the host (a
  one-operand `stablehlo.reduce` over axis 1 whose body is the maximum) the entry at row `p` is the same thing: the
  maximum, folded from the starting value over the `b` entries of that row, in any order.  Both are stated with the
  row's entries written `src (ix2 p k)`, so the two sides of a kernel-against-reference proof meet as one fold.
-/
import Idealize.ShloMosaic.Lib.ValueIdx
import Idealize.ShloMosaic.PureOps.Ideal.Laws

noncomputable section

namespace Cert.Lib.RowMax

open Idealize.ShloMosaic Idealize.ShloMosaic.ValueIdx

/-- A kernel's lane maximum of an `[a, b]` tile, at row `p`: the fold of `max` from the word of −∞ over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g => (Finset.univ : Finset (Fin b)).fold max (Ideal.ofBits .f32 0xFF800000#32) g) (funext fun k => ?_)
  exact congrArg src (funext fun ax => Fin.ext (by match ax with | ⟨0, _⟩ => rfl | ⟨1, _⟩ => rfl))

/-- The host's maximum over axis 1 of an `[a, b]` array, at row `r`: the fold of `max` from the initial value over the row. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun g => (Finset.univ : Finset (Fin b)).fold max (init (Shape.Idx.first hu)) g) (funext fun k => ?_)
  exact congrArg x (funext fun ax => Fin.ext (by match ax with | ⟨0, _⟩ => rfl | ⟨1, _⟩ => rfl))

end Cert.Lib.RowMax

end
-- ==== Proof.KernelBlock.lean ====
/-
  One tile of the kernel, read at an entry.

  A grid point loads a tile of 16384 points, `P : [16384, 3]`, and stores 16384 distances.  Entry `p` of what it stores
  depends on row `p` of the tile only: with `q k = |P[p,k]| − s`, it is the select, on the comparison of the lane
  maximum `max_k q k` (folded from −∞) with 0, between `0 − max_k q k` and `sqrt (Σ_k (max (q k) 0)²)` — that is
  `rowDist q`, since `0 − m = −m` on every extended real.
-/
import proofs.«146414_j52802327937041_1_alg».proof.Proof.Gen.KernelIdeal.Value
import proofs.«146414_j52802327937041_1_alg».proof.Proof.BoxDistance
import proofs.«146414_j52802327937041_1_alg».proof.Proof.LibRowMax
import proofs.«146414_j52802327937041_1_alg».proof.Proof.LibRowFolds

noncomputable section

namespace Cert.KernelIdeal.Block

open Cert.KernelIdeal Cert.KernelIdeal.Gen Idealize.ShloMosaic Idealize.ShloMosaic.ValueIdx Cert.BoxDistance

/-- The tile of shifted coordinates `|P| − s`. -/
def shifted (P : FVec Ideal S16384x3 .f32) : FVec Ideal S16384x3 .f32 :=
  subf (absf P) (broadcast S16384x3 (Scalar.ofBits .f32 0x3ECCCCCD#32))

/-- Its lane maxima, one per row, folded from −∞. -/
def laneMax (P : FVec Ideal S16384x3 .f32) : FVec Ideal S16384 .f32 :=
  multiReduction .maximumf [1] S16384 (shifted P) 0xFF800000#32 reduces_S16384x3_S16384 (.inl rfl) rfl

/-- The lane sums of the squared clamped coordinates, one per row. -/
def laneSumSq (P : FVec Ideal S16384x3 .f32) : FVec Ideal S16384 .f32 :=
  multiReduction .add [1] S16384
    (mulf (maximumf (shifted P) (broadcast S16384x3 (Scalar.ofBits .f32 0x00000000#32)))
      (maximumf (shifted P) (broadcast S16384x3 (Scalar.ofBits .f32 0x00000000#32))))
    0x00000000#32 reduces_S16384x3_S16384 (.inl rfl) rfl

/-- The three places where the stored block reads a reduced value are the block index itself. -/
theorem ix_0 (y : S16384.Idx) : Value.ix1_0 y = y := funext fun a => by match a with | ⟨0, _⟩ => rfl
theorem ix_1 (y : S16384.Idx) : Value.ix1_1 y = y := funext fun a => by match a with | ⟨0, _⟩ => rfl
theorem ix_2 (y : S16384.Idx) : Value.ix1_2 y = y := funext fun a => by match a with | ⟨0, _⟩ => rfl

/-- The stored block at an index, over the three reduced values. -/
theorem stored_eq (P : FVec Ideal S16384x3 .f32) (y : S16384.Idx) :
    Value.E1 (F := Ideal) P y
      = pick (Ideal.ofBits .f32 0x00000000#32) (laneMax P (Value.ix1_0 y)) (laneMax P (Value.ix1_1 y))
          (laneSumSq P (Value.ix1_2 y)) := rfl

/-- A shifted coordinate of the tile is the shift of the tile's entry. -/
theorem shifted_apply (P : FVec Ideal S16384x3 .f32) (p : Fin 16384) (k : Fin 3) :
    shifted P (ix2 p k) = shift (P (ix2 p k)) := rfl

/-- Row `p`'s lane maximum is the largest of its three shifted coordinates. -/
theorem laneMax_apply (P : FVec Ideal S16384x3 .f32) (p : Fin 16384) :
    laneMax P (ix1 p) = rowMax (fun k => shift (P (ix2 p k))) :=
  Cert.Lib.RowMax.rowMax_apply (shifted P) reduces_S16384x3_S16384 (.inl rfl) rfl p

/-- Row `p`'s lane sum is the sum of its three squared clamped shifted coordinates. -/
theorem laneSumSq_apply (P : FVec Ideal S16384x3 .f32) (p : Fin 16384) :
    laneSumSq P (ix1 p) = ∑ k : Fin 3, max (shift (P (ix2 p k))) 0 * max (shift (P (ix2 p k))) 0 := by
  refine (Cert.Lib.RowFolds.laneSum_apply _ reduces_S16384x3_S16384 (.inl rfl) rfl p).trans ?_
  refine Finset.sum_congr rfl fun k _ => ?_
  show max (shift (P (ix2 p k))) (Ideal.ofBits .f32 0x00000000#32) * max (shift (P (ix2 p k))) (Ideal.ofBits .f32 0x00000000#32) = _
  rw [Ideal.ofBits_zero_f32]

/-- ENTRY `p` OF THE STORED BLOCK is the distance of the tile's point `p`. -/
theorem stored_apply (P : FVec Ideal S16384x3 .f32) (p : Fin 16384) :
    Value.E1 (F := Ideal) P (ix1 p) = rowDist (fun k => shift (P (ix2 p k))) := by
  rw [stored_eq, ix_0, ix_1, ix_2, laneMax_apply, laneSumSq_apply, Ideal.ofBits_zero_f32, pick_zero]
  rfl

end Cert.KernelIdeal.Block

end
-- ==== Proof.KernelArray.lean ====
/-
  From tiles to the array: what the kernel's result array holds after the run.

  Grid point `t` of the 512 reads rows `16384·t … 16384·t + 16383` of the `[8388608, 3]` argument and writes back entries
  `16384·t … 16384·t + 16383` of the result.  Entry `p` of its tile is the distance of the tile's point `p`
  (`Block.stored_apply`), so what it writes back is block `t` of the whole array of distances `udf`; the 512 blocks cover
  the result (entry `i` lies in block `i / 16384`), hence the result array ends holding `udf` of the argument.
-/
import proofs.«146414_j52802327937041_1_alg».proof.Proof.KernelBlock
import Idealize.ShloMosaic.Lib.Pipeline.Value

noncomputable section

namespace Cert.KernelIdeal.Array

open Cert.KernelIdeal Cert.KernelIdeal.Gen Idealize.ShloMosaic Idealize.ShloMosaic.TcCoe Idealize.SL.Sem
open Idealize.ShloMosaic.ValueIdx Cert.BoxDistance
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl

/-- The printed index maps, decided over the 512 grid points: both windows' block index along the rows is the point's
    number, and the input's block index along the three columns is 0. -/
theorem idx_facts : ∀ t : Fin cfg0.N, win0_0.index t (0 : Fin 2) = t.val ∧ win0_0.index t (1 : Fin 2) = 0
    ∧ win0_1.index t (0 : Fin 1) = t.val :=
  (by decide +kernel : ∀ t : Fin grid0.N, win0_0.index t (0 : Fin 2) = t.val ∧ win0_0.index t (1 : Fin 2) = 0
    ∧ win0_1.index t (0 : Fin 1) = t.val)

/-- WHAT POINT `t` WRITES BACK is block `t` of the array of distances of the argument as the region finds it. -/
theorem flushed_eq (c : Dev nD) (t : Fin cfg0.N) :
    (dats m 0 c).flushed 1 t = ((cfg0.win 1).blk t).view.read (Elt Ideal) (udf (V m c main_arg0)) := by
  rw [Value.flushed1]
  obtain ⟨e0, e1, e2⟩ := idx_facts t
  funext j
  obtain ⟨p, rfl⟩ : ∃ p : Fin 16384, j = ix1 p := ⟨j 0, eq_ix1 (n := 16384) j⟩
  show out0_1 (iblk m c 0 t) (ix1 p) = udf (V m c main_arg0) (((cfg0.win 1).blk t).view.emb (ix1 p))
  unfold out0_1
  rw [View.ld_unit_zero (S := S16384x3) zero2]
  refine (Value.canon1_eq (F := Ideal) (iblk m c 0 t) (ix1 p)).trans ?_
  refine (Block.stored_apply (iblk m c 0 t) p).trans ?_
  show rowDist _ = rowDist _
  refine congrArg rowDist (funext fun k => congrArg shift ?_)
  show V m c main_arg0 (((cfg0.win 0).blk t).view.emb (ix2 p k))
    = V m c main_arg0 (ix2 ((((cfg0.win 1).blk t).view.emb (ix1 p)) 0) k)
  refine congrArg (V m c main_arg0) (funext fun a => Fin.ext ?_)
  match a with
  | ⟨0, _⟩ =>
    show win0_0.index t (0 : Fin 2) * 16384 + 1 * p.val = win0_1.index t (0 : Fin 1) * 16384 + 1 * p.val
    omega
  | ⟨1, _⟩ =>
    show win0_0.index t (1 : Fin 2) * 3 + 1 * k.val = k.val
    omega

/-- An entry of the result is in point `t`'s block iff it lies in the block's range of 16384 entries. -/
theorem mem_blk (t : Fin cfg0.N) (i : S8388608.Idx) :
    i ∈ ((cfg0.win 1).blk t).view.set ↔ ∀ a : Fin 1, win0_1.index t a * S16384.size a ≤ (i a).val
      ∧ (i a).val < win0_1.index t a * S16384.size a + S16384.size a := by
  show i ∈ ((View.whole main_v0).slice (win0_1.rect t)).set ↔ _
  rw [View.set_slice_whole, Rect.mem_set_unit]
  exact Iff.rfl

/-- Every entry of the result lies in the block of some point that writes back: entry `i` in block `i / 16384`. -/
theorem cover (i : S8388608.Idx) :
    ∃ t : Fin cfg0.N, (cfg0.win 1).flush t = true ∧ i ∈ ((cfg0.win 1).blk t).view.set := by
  have hi : (i 0).val < 8388608 := (i 0).isLt
  have hN : grid0.N = 512 := N_0
  have ht : (i 0).val / 16384 < grid0.N := by rw [hN]; omega
  refine ⟨⟨(i 0).val / 16384, ht⟩, flush0_1 _, ?_⟩
  rw [mem_blk]
  obtain ⟨_, _, e2⟩ := idx_facts ⟨(i 0).val / 16384, ht⟩
  intro a
  match a with
  | ⟨0, _⟩ =>
    show win0_1.index ⟨(i 0).val / 16384, ht⟩ (0 : Fin 1) * 16384 ≤ (i 0).val
      ∧ (i 0).val < win0_1.index ⟨(i 0).val / 16384, ht⟩ (0 : Fin 1) * 16384 + 16384
    rw [e2]
    show (i 0).val / 16384 * 16384 ≤ (i 0).val ∧ (i 0).val < (i 0).val / 16384 * 16384 + 16384
    omega

/-- THE RESULT ARRAY after the run is the array of distances of the argument. -/
theorem final (c : Dev nD) :
    (dats m 0 c).arrAt 1 cfg0.N = udf (m ((c : Thread nD τ).loc main_arg0)) :=
  (dats m 0 c).arrAt_eq_of_cover 1 (udf (V m c main_arg0)) (fun t _ => flushed_eq m c t) cover

/-- The kernel's run, read: the result at `udf` of the argument, the argument unchanged. -/
theorem run : θ_run defs (onTc (τ := τ) (main (F := Ideal))) ⟨m, fun _ => 0, ρ⟩ fun r => ∀ c : Dev nD,
      r.2.mem ((c : Thread nD τ).loc main_v0) = udf (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Array

end
-- ==== Proof.ReferenceRows.lean ====
/-
  The reference, read at an entry.

  Entry `r` of the reference's result depends on row `r` of the argument only.  With `q k = |x[r,k]| − s`: its mask is the
  `and`, folded from the word 1, of the three comparisons `q k < 0`; its inside distance is the negation of the maximum
  of the `q k` folded from −∞; its outside distance is `sqrt (0 + Σ_k (max (q k) 0)²)`.  The `and` of the comparisons is
  the comparison of the maximum with 0 (`inside_word`), and `0 + s = s`, so the entry is `rowDist q`.
-/
import proofs.«146414_j52802327937041_1_alg».proof.Proof.RefRead
import proofs.«146414_j52802327937041_1_alg».proof.Proof.BoxDistance
import proofs.«146414_j52802327937041_1_alg».proof.Proof.LibRowMax
import proofs.«146414_j52802327937041_1_alg».proof.Proof.LibRowFolds

noncomputable section

namespace Cert.ReferenceIdeal.Rows

open Cert.ReferenceIdeal Cert.ReferenceIdeal.Gen Cert.ReferenceIdeal.ReadP Idealize.ShloMosaic Idealize.ShloMosaic.ValueIdx Cert.BoxDistance

/-- The reference's shifted coordinate at `(r, k)`. -/
theorem v2_apply (x0 : (⟨S8388608x3, .f32⟩ : BufTy).Contents (Elt Ideal)) (r : Fin 8388608) (k : Fin 3) :
    val_main_v2 (F := Ideal) x0 (ix2 r k) = shift (x0 (ix2 r k)) := by
  rw [val_main_v2_apply, val_main_v0_apply, val_main_v1_apply, val_main_cst_apply]
  rfl

/-- Its row maximum at `r`: the largest of the row's three shifted coordinates. -/
theorem v11_apply (x0 : (⟨S8388608x3, .f32⟩ : BufTy).Contents (Elt Ideal)) (r : Fin 8388608) :
    val_main_v11 (F := Ideal) x0 (ix1 r) = rowMax (fun k => shift (x0 (ix2 r k))) := by
  unfold val_main_v11
  refine (Cert.Lib.RowMax.hostRowMax_apply (val_main_v2 (F := Ideal) x0) (val_main_cst_3 (F := Ideal))
    reducesTo_S8388608x3_S8388608_d1 (by decide) h_S_ r).trans ?_
  unfold rowMax
  rw [val_main_cst_3_apply]
  exact congrArg (fun g => (Finset.univ : Finset (Fin 3)).fold max (Ideal.ofBits .f32 0xFF800000#32) g)
    (funext fun k => v2_apply x0 r k)

/-- Its mask at `r`: the comparison of that maximum with 0. -/
theorem v5_apply (x0 : (⟨S8388608x3, .f32⟩ : BufTy).Contents (Elt Ideal)) (r : Fin 8388608) :
    val_main_v5 (F := Ideal) x0 (ix1 r) = Ideal.cmp .olt (rowMax (fun k => shift (x0 (ix2 r k)))) 0 := by
  unfold val_main_v5
  refine (Cert.Lib.RowFolds.hostRowAll_apply (val_main_v4 (F := Ideal) x0) (val_main_c (F := Ideal))
    reducesTo_S8388608x3_S8388608_d1 (by decide) h_S_ r).trans ?_
  rw [val_main_c_apply, ← inside_word]
  refine congrArg (fun g => (Finset.univ : Finset (Fin 3)).fold (IntOp.andi (w := 1)) 1#1 g) (funext fun k => ?_)
  rw [val_main_v4_apply, v2_apply, val_main_v3_apply, val_main_cst_0_apply]
  show Ideal.cmp .olt (shift (x0 (ix2 r k))) (Ideal.ofBits .f32 0x00000000#32) = _
  rw [Ideal.ofBits_zero_f32]

/-- Its sum of squares at `r`. -/
theorem v9_apply (x0 : (⟨S8388608x3, .f32⟩ : BufTy).Contents (Elt Ideal)) (r : Fin 8388608) :
    val_main_v9 (F := Ideal) x0 (ix1 r)
      = ∑ k : Fin 3, max (shift (x0 (ix2 r k))) 0 * max (shift (x0 (ix2 r k))) 0 := by
  rw [val_main_v9_apply, val_main_cst_2_apply]
  show Ideal.ofBits .f32 0x00000000#32 + _ = _
  rw [Ideal.ofBits_zero_f32, zero_add]
  refine Finset.sum_congr rfl fun k _ => ?_
  have hi : idx_main_v9 (ix1 r) k = ix2 r k :=
    funext fun a => Fin.ext (by match a with | ⟨0, _⟩ => rfl | ⟨1, _⟩ => rfl)
  rw [hi, val_main_v8_apply, val_main_v7_apply, v2_apply, val_main_v6_apply, val_main_cst_1_apply]
  show max (shift (x0 (ix2 r k))) (Ideal.ofBits .f32 0x00000000#32) * max (shift (x0 (ix2 r k))) (Ideal.ofBits .f32 0x00000000#32) = _
  rw [Ideal.ofBits_zero_f32]

/-- ENTRY `r` OF THE REFERENCE'S RESULT is the distance of the argument's point `r`. -/
theorem result_apply (x0 : (⟨S8388608x3, .f32⟩ : BufTy).Contents (Elt Ideal)) (r : Fin 8388608) :
    val_main_v13 (F := Ideal) x0 (ix1 r) = rowDist (fun k => shift (x0 (ix2 r k))) := by
  rw [val_main_v13_apply, v5_apply, val_main_v12_apply, v11_apply, val_main_v10_apply, v9_apply]
  show Scalar.select _ (-(rowMax _)) (Ideal.sqrt _) = _
  rw [select_olt]
  rfl

/-- The reference's result is the array of distances of its argument. -/
theorem result_eq (x0 : (⟨S8388608x3, .f32⟩ : BufTy).Contents (Elt Ideal)) :
    val_main_v13 (F := Ideal) x0 = udf x0 := by
  funext i
  obtain ⟨r, rfl⟩ : ∃ r : Fin 8388608, i = ix1 r := ⟨i 0, eq_ix1 i⟩
  exact result_apply x0 r

end Cert.ReferenceIdeal.Rows

end
-- ==== Proof.lean ====
/-
  A kernel that computes, for 8388608 points of space, the distance from each point to the surface of the cube
  `[−s, s]³` (`s` the binary32 number nearest 0.4), against the same closed form written in array operations.

  Both programs compute, for the point `x = (x₀, x₁, x₂)` with shifted coordinates `q k = |x k| − s`,
      inside  ?  −(max_k q k)  :  sqrt (Σ_k (max (q k) 0)²).
  They differ in two spellings.  The kernel says "inside" as `max_k q k < 0`, the reference as the conjunction of the three
  `q k < 0`: one proposition in a linear order, the maximum being folded from −∞, which is negative.  The kernel negates
  by `0 − m`, the reference by `−m`: equal on every extended real.  Sums and maxima are taken over the same three
  lanes on both sides, and the tiling of the 8388608 rows into 512 tiles of 16384 does not show in the result: tile `t`
  writes entries `16384·t … 16384·t + 16383`, each from its own row.  No step needs the inputs to be finite, so the
  precondition is never opened.

  The modules: `BoxDistance` states the array of distances `udf` and the two facts above; `KernelBlock` reads one tile
  of the kernel at an entry, `KernelArray` puts the 512 tiles together into the kernel's run; `ReferenceRows` reads the
  reference's result at an entry; here the five claims are assembled.  The kernel leaves nothing to idealize (no
  rewrite was applied), so that claim is trivial; the three frames are the generated frame runs, the reference's being
  its run with the result dropped.
-/
import proofs.«146414_j52802327937041_1_alg».proof.Defs
import proofs.«146414_j52802327937041_1_alg».proof.Proof.Gen.Kernel
import proofs.«146414_j52802327937041_1_alg».proof.Proof.Gen.Kernel.Frame
import proofs.«146414_j52802327937041_1_alg».proof.Proof.Gen.KernelIdeal
import proofs.«146414_j52802327937041_1_alg».proof.Proof.Gen.KernelIdeal.Frame
import proofs.«146414_j52802327937041_1_alg».proof.Proof.Gen.KernelIdeal.Value
import proofs.«146414_j52802327937041_1_alg».proof.Proof.Gen.ReferenceIdeal
import proofs.«146414_j52802327937041_1_alg».proof.Proof.Gen.Pre_finite_inputs
import proofs.«146414_j52802327937041_1_alg».proof.Proof.RefRun
import proofs.«146414_j52802327937041_1_alg».proof.Proof.RefRead
import proofs.«146414_j52802327937041_1_alg».proof.Proof.KernelArray
import proofs.«146414_j52802327937041_1_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel runs and leaves its argument as found. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the extended reals, from memories that agree on the argument, the kernel's result array and the reference's
    both end holding the array of distances `udf` of that argument. -/
theorem algebraic : Cert.algebraic_KernelIdeal_ReferenceIdeal := by
  intro m ρ m' ρ' _ hagree
  refine ⟨fun c => Cert.BoxDistance.udf (m ((c.tc : Thread Cert.KernelIdeal.nD Cert.KernelIdeal.τ).loc Cert.KernelIdeal.main_arg0)),
    Cert.KernelIdeal.Array.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v13_eq, Cert.ReferenceIdeal.Rows.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
